-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048x2048 .f32) (main_arg12 : FVec F S2048 .f32) (main_arg13 : FVec F S2048x2048 .f32) (main_arg14 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S1x6144 : Shape := ⟨2, ![1, 6144]⟩
abbrev S256x256 : Shape := ⟨2, ![256, 256]⟩
abbrev S6144x256 : Shape := ⟨2, ![6144, 256]⟩
abbrev S256x2048 : Shape := ⟨2, ![256, 2048]⟩
abbrev S256x6144 : Shape := ⟨2, ![256, 6144]⟩

abbrev nBuf : Space → Nat
  | .hbm => 25
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S6144x2048, .f32⟩
  | .hbm, ⟨16, _⟩ => ⟨S6144x2048, .bf16⟩
  | .hbm, ⟨17, _⟩ => ⟨S6144x2048, .f32⟩
  | .hbm, ⟨18, _⟩ => ⟨S6144x2048, .bf16⟩
  | .hbm, ⟨19, _⟩ => ⟨S6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8192x2048, .f32⟩
  | .hbm, ⟨24, _⟩ => ⟨S8192x2048, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S6144x256, .bf16⟩
  | .local _ .vmem, ⟨5, _⟩ => ⟨S6144x256, .bf16⟩
  | .local _ .vmem, ⟨6, _⟩ => ⟨S6144x256, .bf16⟩
  | .local _ .vmem, ⟨7, _⟩ => ⟨S6144x256, .bf16⟩
  | .local _ .vmem, ⟨8, _⟩ => ⟨S1x6144, .f32⟩
  | .local _ .vmem, ⟨9, _⟩ => ⟨S1x6144, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x6144, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S6144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S6144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  concatenates_S2048x2048_S2048x2048_S2048x2048_S6144x2048_d0 : Shape.Concatenates [S2048x2048, S2048x2048, S2048x2048] S6144x2048 0
  bitsLt_bf16_f32 : FTy.bits .bf16 < FTy.bits .f32
  concatenates_S2048_S2048_S2048_S6144_d0 : Shape.Concatenates [S2048, S2048, S2048] S6144 0
  shapeCasts_S6144_S1x6144 : S6144.ShapeCasts S1x6144
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S256x256_S256x256_0_0 : ∀ a, (![0, 0] : Fin 2 → Nat) a + S256x256.size a ≤ S256x256.size a
  h_S256x256 : 0 < S256x256.numel
  inb_S6144x256_S6144x256_0_0 : ∀ a, (![0, 0] : Fin 2 → Nat) a + S6144x256.size a ≤ S6144x256.size a
  h_S6144x256 : 0 < S6144x256.numel
  shapeCasts_S6144x256_S6144x256 : S6144x256.ShapeCasts S6144x256
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S256x6144 : S1x6144.Broadcasts S256x6144
  slices_S256x6144_o0_0_S256x2048 : S256x6144.Slices ![0, 0] S256x2048
  slices_S256x6144_o0_2048_S256x2048 : S256x6144.Slices ![0, 2048] S256x2048
  slices_S256x6144_o0_4096_S256x2048 : S256x6144.Slices ![0, 4096] S256x2048
  inb_S256x2048_S256x2048_0_0 : ∀ a, (![0, 0] : Fin 2 → Nat) a + S256x2048.size a ≤ S256x2048.size a
  h_S256x2048 : 0 < S256x2048.numel
  dot_S256x256_S6144x256_S256x6144_1_1_0_0_n_n_wf : DotDims.WF S256x256 S6144x256 S256x6144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x2048.size a
  hwx0_0 : ∀ i : grid0.Coords, EltTy.bits .f32 = 32 ∨ (Rect.block (s := S8192x2048) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x2048.size a
  hwx0_1 : ∀ i : grid0.Coords, EltTy.bits .f32 = 32 ∨ (Rect.block (s := S8192x2048) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6144x256.size a ≤ S6144x2048.size a
  hwx0_2 : ∀ i : grid0.Coords, EltTy.bits .bf16 = 32 ∨ (Rect.block (s := S6144x2048) S6144x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6144x256.size a ≤ S6144x2048.size a
  hwx0_3 : ∀ i : grid0.Coords, EltTy.bits .bf16 = 32 ∨ (Rect.block (s := S6144x2048) S6144x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6144.size a ≤ S1x6144.size a
  hwx0_4 : ∀ i : grid0.Coords, EltTy.bits .f32 = 32 ∨ (Rect.block (s := S1x6144) S1x6144.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6144.size a ≤ S1x6144.size a
  hwx0_5 : ∀ i : grid0.Coords, EltTy.bits .f32 = 32 ∨ (Rect.block (s := S1x6144) S1x6144.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .f32 = 32 ∨ (Rect.block (s := S8192x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S8192x2048.size a
  hwx0_8 : ∀ i : grid0.Coords, EltTy.bits .f32 = 32 ∨ (Rect.block (s := S8192x2048) S256x2048.size (cc0_transform_8 i) (hinb0_8 i)).WholeWords (EltTy.packing .f32)

variable [Facts₀]

def dot_S256x256_S6144x256_S256x6144_1_1_0_0_n_n : DotDims S256x256 S6144x256 S256x6144 where
  lhsContracting := [1]
  rhsContracting := [1]
  lhsNonContracting := [0]
  rhsNonContracting := [0]
  lhsBatch := []
  rhsBatch := []
  wf := dot_S256x256_S6144x256_S256x6144_1_1_0_0_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6144x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S6144x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S2048x6144 : Shape := ⟨2, ![2048, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S6144x2048, .f32⟩
  | .hbm, ⟨16, _⟩ => ⟨S6144x2048, .f32⟩
  | .hbm, ⟨17, _⟩ => ⟨S6144, .f32⟩
  | .hbm, ⟨18, _⟩ => ⟨S6144, .f32⟩
  | .hbm, ⟨19, _⟩ => ⟨S2048x6144, .f32⟩
  | .hbm, ⟨20, _⟩ => ⟨S8192x6144, .f32⟩
  | .hbm, ⟨21, _⟩ => ⟨S1x6144, .f32⟩
  | .hbm, ⟨22, _⟩ => ⟨S8192x6144, .f32⟩
  | .hbm, ⟨23, _⟩ => ⟨S8192x6144, .f32⟩
  | .hbm, ⟨24, _⟩ => ⟨S2048x6144, .f32⟩
  | .hbm, ⟨25, _⟩ => ⟨S8192x6144, .f32⟩
  | .hbm, ⟨26, _⟩ => ⟨S8192x6144, .f32⟩
  | .hbm, ⟨27, _⟩ => ⟨S1x6144, .f32⟩
  | .hbm, ⟨28, _⟩ => ⟨S8192x6144, .f32⟩
  | .hbm, ⟨29, _⟩ => ⟨S8192x6144, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  concatenates_S2048x2048_S2048x2048_S2048x2048_S6144x2048_d0 : Shape.Concatenates [S2048x2048, S2048x2048, S2048x2048] S6144x2048 0
  concatenates_S2048_S2048_S2048_S6144_d0 : Shape.Concatenates [S2048, S2048, S2048] S6144 0
  transposes_S6144x2048_S2048x6144_1_0 : S6144x2048.Transposes [1, 0] S2048x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x2048_S2048x6144_S8192x6144_1_0_0_1_n_n_wf : DotDims.WF S8192x2048 S2048x6144 S8192x6144 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf

class Facts : Prop extends Facts₀ where

variable [Facts]
-- ==== Proof.KernelFrame.Kit.lean ====
/-
  The launch side of the LSTM-cell kernel's frame, shared by its three control cases.

  The grid is 32 batch tiles by 8 contraction steps, point t = 8·b + k. Before the region the host
  concatenates the three input-to-hidden weight matrices (and the three hidden-to-hidden ones, and the two
  bias triples) into [6144, 2048] and [1, 6144] arrays; none of these writes an argument array, so the region
  finds every argument as launched. The body resets its [256, 6144] accumulator when k = 0, adds the two
  partial products of the step at every k, and when k = 7 adds the biases, applies the gates and stores the two
  output blocks; the outputs are idle (and not written back) at every other step.
-/
import proofs.«111936_j28020366639121_2_alg».proof.Proof.Gen.Kernel.Launch
import proofs.«111936_j28020366639121_2_alg».proof.Proof.Gen.Kernel.Skeleton
import proofs.«111936_j28020366639121_2_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the eight host operations (three concatenations of
    weights or biases per side, the two changes of float format, the two reshapes to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: each writes only its own result buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 1: each writes only its own result buffer. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 2: each writes only its own result buffer. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 3: each writes only its own result buffer. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 4: each writes only its own result buffer. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 5: each writes only its own result buffer. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 6: each writes only its own result buffer. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 7: each writes only its own result buffer. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 8: each writes only its own result buffer. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 9: each writes only its own result buffer. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 10: each writes only its own result buffer. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 11: each writes only its own result buffer. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 12: each writes only its own result buffer. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 13: each writes only its own result buffer. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 14: each writes only its own result buffer. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is
    not fetched its block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is
    not fetched its block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is
    not fetched its block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is
    not fetched its block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (where it is
    not fetched its block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (where it is
    not fetched its block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: an argument a window stages ends at its entry contents because the window is an
    input; an argument no window stages because the region leaves every other unscoped buffer alone. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 6).trans (((dats 0 c).arrAt_in 6 rfl _).trans ((hA c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's two conditions, in closed form over the grid -/

/-- "This is the first contraction step" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction step" (k = 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- Output window 7 is idle, and not written back, wherever k ≠ 7; live where k = 7. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-- Output window 8 is idle, and not written back, wherever k ≠ 7; live where k = 7. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

/-- One staging buffer of each output window, through which its contents are stated. -/
abbrev VO0_7 : View sig .tc .vmem S256x2048 .f32 := (Memref.whole cc0_stg7_0 : Memref sig .tc .vmem S256x2048 .f32).view
abbrev VO0_8 : View sig .tc .vmem S256x2048 .f32 := (Memref.whole cc0_stg8_0 : Memref sig .tc .vmem S256x2048 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .f32 := win0_8.stage (cfg0.slots t 8)
abbrev hs0_8 (t : Fin cfg0.N) : (ms0_8 t).IsWhole := hstage0_8 ((cfg0.slots t 8).cast nbuf0_8)
/-- The accumulator: a whole scoped buffer of the kernel's own. -/
abbrev scM0_0 : Memref sig .tc .vmem S256x6144 .f32 := Memref.whole cc0_scratch0
abbrev VS0_0 : View sig .tc .vmem S256x6144 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.KernelFrame.RunA.lean ====
/-
  The body at a first contraction step (k = 0): it overwrites the accumulator with zeros, then with the zeros
  plus the step's two partial products; it stores nothing into the outputs, which it hands back untouched.
  The accumulator's final pieces are found by running the body.
-/
import proofs.«111936_j28020366639121_2_alg».proof.Proof.KernelFrame.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at k = 0 on whole staging memrefs: inputs at their contents, outputs at any contents handed
    back as found, the accumulator at anything and left with the pieces `LS0` written. -/
noncomputable def kernelRun0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) :
    { LS0 : List (View.Piece (Elt F) S256x6144 .f32) //
      ∀ (xi7 xi8 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Frm

end
-- ==== Proof.KernelFrame.RunB.lean ====
/-
  The body at a middle contraction step (0 < k < 7): it adds the step's two partial products to the
  accumulator the step before left, and stores nothing into the outputs.
-/
import proofs.«111936_j28020366639121_2_alg».proof.Proof.KernelFrame.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at 0 < k < 7: as at k = 0, the accumulator now at the contents `xs0` the step before left. -/
noncomputable def kernelRun0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) :
    { LS0 : List (View.Piece (Elt F) S256x6144 .f32) //
      ∀ (xi7 xi8 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Frm

end
-- ==== Proof.KernelFrame.RunC.lean ====
/-
  The body at the last contraction step (k = 7): it adds the step's two partial products to the accumulator,
  then from the finished accumulator, the two bias rows and the cell-state block computes the gates and stores
  both output blocks whole.
-/
import proofs.«111936_j28020366639121_2_alg».proof.Proof.KernelFrame.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at k = 7: outputs at anything and left with the pieces `L7`, `L8` written, the
    accumulator at `xs0` and left with `LS0` written. -/
noncomputable def kernelRun0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) :
    Σ' (L7 : List (View.Piece (Elt F) S256x2048 .f32)) (L8 : List (View.Piece (Elt F) S256x2048 .f32)), { LS0 : List (View.Piece (Elt F) S256x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel.Frm

end
-- ==== Proof.KernelFrame.Frame.lean ====
/-
  The frame of the LSTM-cell kernel: what the accumulator and the two output blocks hold after each grid
  point, the pipeline's proof data, the body's obligation at a generic point, the run, and the frame claim.

  After point t = 8·b + k the accumulator holds what the case of k leaves, computed from the point's input
  blocks and (for k > 0) from what the accumulator held after point t - 1; the output blocks are written only
  at k = 7, from the finished accumulator of batch tile b, and written back there.
-/
import proofs.«111936_j28020366639121_2_alg».proof.Proof.KernelFrame.RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (y : S256x6144.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S256x6144.size (by sl_kernel_rfl) y

/-- The accumulator after a first step: the case's pieces read back. -/
def sout0_A_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) : Vec F S256x6144 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem scover0_B_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x6144.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S256x6144.size (by sl_kernel_rfl) y

/-- The accumulator after a middle step. -/
def sout0_B_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x6144 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)

theorem cover0_C_7 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x2048.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S256x2048.size (by sl_kernel_rfl) y

/-- The new hidden state's block after a last step. -/
def out0_C_7 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)

theorem cover0_C_8 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x2048.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S256x2048.size (by sl_kernel_rfl) y

/-- The new cell state's block after a last step. -/
def out0_C_8 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x2048 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

theorem scover0_C_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x6144.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S256x6144.size (by sl_kernel_rfl) y

/-- The accumulator after a last step. -/
def sout0_C_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x6144 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After position `n`: the two output blocks (placeholders where the window is idle: nothing consults them) and
    the accumulator — the case of `n mod 8` run at the point's input blocks, over what position `n - 1` left
    in the accumulator. -/
def outsAt0 (c : Dev nD) : (n : ℕ) → n < cfg0.N → Vec F S256x2048 .f32 × Vec F S256x2048 .f32 × Vec F S256x6144 .f32
  | 0, hn => (VO0_7.read (Elt F) (VO0_7.writes (Elt F) VO0_7.junk []), VO0_8.read (Elt F) (VO0_8.writes (Elt F) VO0_8.junk []),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (VO0_7.read (Elt F) (VO0_7.writes (Elt F) VO0_7.junk []), VO0_8.read (Elt F) (VO0_8.writes (Elt F) VO0_8.junk []),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2,
         out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)
      else
        (VO0_7.read (Elt F) (VO0_7.writes (Elt F) VO0_7.junk []), VO0_8.read (Elt F) (VO0_8.writes (Elt F) VO0_8.junk []),
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 m c t.val t.isLt = (VO0_7.read (Elt F) (VO0_7.writes (Elt F) VO0_7.junk []), VO0_8.read (Elt F) (VO0_8.writes (Elt F) VO0_8.junk []),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (VO0_7.read (Elt F) (VO0_7.writes (Elt F) VO0_7.junk []), VO0_8.read (Elt F) (VO0_8.writes (Elt F) VO0_8.junk []),
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' memrefs hold their blocks; `t mod 8` says which case the point is in; the
    invariant hands the body the accumulator at what the point before left (at anything at the very first point)
    and takes it back at this point's contents; at k ≠ 7 the outputs go back as found, at k = 7 with their
    blocks stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 8 = 0
  · have h1 : ¬t.val % 8 = 7 := by omega
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    by_cases h1 : t.val % 8 = 7
    · rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold out0_C_7 out0_C_8 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _)
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters every weakly fair execution of @main terminates, every array of the
    pipeline at what the library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frm

end
-- ==== Proof.KernelIdealFrame.Kit.lean ====
/-
  The launch side of the LSTM-cell kernel's frame, shared by its three control cases.

  The grid is 32 batch tiles by 8 contraction steps, point t = 8·b + k. Before the region the host
  concatenates the three input-to-hidden weight matrices (and the three hidden-to-hidden ones, and the two
  bias triples) into [6144, 2048] and [1, 6144] arrays; none of these writes an argument array, so the region
  finds every argument as launched. The body resets its [256, 6144] accumulator when k = 0, adds the two
  partial products of the step at every k, and when k = 7 adds the biases, applies the gates and stores the two
  output blocks; the outputs are idle (and not written back) at every other step.
-/
import proofs.«111936_j28020366639121_2_alg».proof.Proof.Gen.KernelIdeal.Launch
import proofs.«111936_j28020366639121_2_alg».proof.Proof.Gen.KernelIdeal.Skeleton
import proofs.«111936_j28020366639121_2_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the eight host operations (three concatenations of
    weights or biases per side, the two changes of float format, the two reshapes to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: each writes only its own result buffer. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 1: each writes only its own result buffer. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 2: each writes only its own result buffer. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 3: each writes only its own result buffer. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 4: each writes only its own result buffer. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 5: each writes only its own result buffer. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 6: each writes only its own result buffer. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 7: each writes only its own result buffer. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 8: each writes only its own result buffer. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 9: each writes only its own result buffer. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 10: each writes only its own result buffer. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 11: each writes only its own result buffer. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 12: each writes only its own result buffer. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 13: each writes only its own result buffer. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation writes argument 14: each writes only its own result buffer. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is
    not fetched its block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is
    not fetched its block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is
    not fetched its block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is
    not fetched its block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (where it is
    not fetched its block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (where it is
    not fetched its block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: an argument a window stages ends at its entry contents because the window is an
    input; an argument no window stages because the region leaves every other unscoped buffer alone. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 6).trans (((dats 0 c).arrAt_in 6 rfl _).trans ((hA c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's two conditions, in closed form over the grid -/

/-- "This is the first contraction step" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction step" (k = 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- Output window 7 is idle, and not written back, wherever k ≠ 7; live where k = 7. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-- Output window 8 is idle, and not written back, wherever k ≠ 7; live where k = 7. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The memrefs the body is called with -/

/-- One staging buffer of each output window, through which its contents are stated. -/
abbrev VO0_7 : View sig .tc .vmem S256x2048 .f32 := (Memref.whole cc0_stg7_0 : Memref sig .tc .vmem S256x2048 .f32).view
abbrev VO0_8 : View sig .tc .vmem S256x2048 .f32 := (Memref.whole cc0_stg8_0 : Memref sig .tc .vmem S256x2048 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .f32 := win0_8.stage (cfg0.slots t 8)
abbrev hs0_8 (t : Fin cfg0.N) : (ms0_8 t).IsWhole := hstage0_8 ((cfg0.slots t 8).cast nbuf0_8)
/-- The accumulator: a whole scoped buffer of the kernel's own. -/
abbrev scM0_0 : Memref sig .tc .vmem S256x6144 .f32 := Memref.whole cc0_scratch0
abbrev VS0_0 : View sig .tc .vmem S256x6144 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KernelIdealFrame.RunA.lean ====
/-
  The body at a first contraction step (k = 0): it overwrites the accumulator with zeros, then with the zeros
  plus the step's two partial products; it stores nothing into the outputs, which it hands back untouched.
  The accumulator's final pieces are found by running the body.
-/
import proofs.«111936_j28020366639121_2_alg».proof.Proof.KernelIdealFrame.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at k = 0 on whole staging memrefs: inputs at their contents, outputs at any contents handed
    back as found, the accumulator at anything and left with the pieces `LS0` written. -/
noncomputable def kernelRun0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) :
    { LS0 : List (View.Piece (Elt F) S256x6144 .f32) //
      ∀ (xi7 xi8 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Frm

end
-- ==== Proof.KernelIdealFrame.RunB.lean ====
/-
  The body at a middle contraction step (0 < k < 7): it adds the step's two partial products to the
  accumulator the step before left, and stores nothing into the outputs.
-/
import proofs.«111936_j28020366639121_2_alg».proof.Proof.KernelIdealFrame.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at 0 < k < 7: as at k = 0, the accumulator now at the contents `xs0` the step before left. -/
noncomputable def kernelRun0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) :
    { LS0 : List (View.Piece (Elt F) S256x6144 .f32) //
      ∀ (xi7 xi8 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Frm

end
-- ==== Proof.KernelIdealFrame.RunC.lean ====
/-
  The body at the last contraction step (k = 7): it adds the step's two partial products to the accumulator,
  then from the finished accumulator, the two bias rows and the cell-state block computes the gates and stores
  both output blocks whole.
-/
import proofs.«111936_j28020366639121_2_alg».proof.Proof.KernelIdealFrame.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple at k = 7: outputs at anything and left with the pieces `L7`, `L8` written, the
    accumulator at `xs0` and left with `LS0` written. -/
noncomputable def kernelRun0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) :
    Σ' (L7 : List (View.Piece (Elt F) S256x2048 .f32)) (L8 : List (View.Piece (Elt F) S256x2048 .f32)), { LS0 : List (View.Piece (Elt F) S256x6144 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Frm

end
-- ==== Proof.KernelIdealFrame.Frame.lean ====
/-
  The frame of the LSTM-cell kernel: what the accumulator and the two output blocks hold after each grid
  point, the pipeline's proof data, the body's obligation at a generic point, the run, and the frame claim.

  After point t = 8·b + k the accumulator holds what the case of k leaves, computed from the point's input
  blocks and (for k > 0) from what the accumulator held after point t - 1; the output blocks are written only
  at k = 7, from the finished accumulator of batch tile b, and written back there.
-/
import proofs.«111936_j28020366639121_2_alg».proof.Proof.KernelIdealFrame.RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (y : S256x6144.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S256x6144.size (by sl_kernel_rfl) y

/-- The accumulator after a first step: the case's pieces read back. -/
def sout0_A_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) : Vec F S256x6144 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem scover0_B_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x6144.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S256x6144.size (by sl_kernel_rfl) y

/-- The accumulator after a middle step. -/
def sout0_B_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : ¬cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x6144 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)

theorem cover0_C_7 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x2048.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S256x2048.size (by sl_kernel_rfl) y

/-- The new hidden state's block after a last step. -/
def out0_C_7 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x2048 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)

theorem cover0_C_8 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x2048.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S256x2048.size (by sl_kernel_rfl) y

/-- The new cell state's block after a last step. -/
def out0_C_8 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x2048 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

theorem scover0_C_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) (y : S256x6144.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S256x6144.size (by sl_kernel_rfl) y

/-- The accumulator after a last step. -/
def sout0_C_0 (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec F S256x256 .f32) (x1 : Vec F S256x256 .f32) (x2 : Vec F S6144x256 .bf16) (x3 : Vec F S6144x256 .bf16) (x4 : Vec F S1x6144 .f32) (x5 : Vec F S1x6144 .f32) (x6 : Vec F S256x2048 .f32) (xs0 : Vec F S256x6144 .f32) : Vec F S256x6144 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-! ## What the buffers hold after each point -/

/-- After position `n`: the two output blocks (placeholders where the window is idle: nothing consults them) and
    the accumulator — the case of `n mod 8` run at the point's input blocks, over what position `n - 1` left
    in the accumulator. -/
def outsAt0 (c : Dev nD) : (n : ℕ) → n < cfg0.N → Vec F S256x2048 .f32 × Vec F S256x2048 .f32 × Vec F S256x6144 .f32
  | 0, hn => (VO0_7.read (Elt F) (VO0_7.writes (Elt F) VO0_7.junk []), VO0_8.read (Elt F) (VO0_8.writes (Elt F) VO0_8.junk []),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (VO0_7.read (Elt F) (VO0_7.writes (Elt F) VO0_7.junk []), VO0_8.read (Elt F) (VO0_8.writes (Elt F) VO0_8.junk []),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2,
         out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)
      else
        (VO0_7.read (Elt F) (VO0_7.writes (Elt F) VO0_7.junk []), VO0_8.read (Elt F) (VO0_8.writes (Elt F) VO0_8.junk []),
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 m c t.val t.isLt = (VO0_7.read (Elt F) (VO0_7.writes (Elt F) VO0_7.junk []), VO0_8.read (Elt F) (VO0_8.writes (Elt F) VO0_8.junk []),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (VO0_7.read (Elt F) (VO0_7.writes (Elt F) VO0_7.junk []), VO0_8.read (Elt F) (VO0_8.writes (Elt F) VO0_8.junk []),
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' memrefs hold their blocks; `t mod 8` says which case the point is in; the
    invariant hands the body the accumulator at what the point before left (at anything at the very first point)
    and takes it back at this point's contents; at k ≠ 7 the outputs go back as found, at k = 7 with their
    blocks stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 8 = 0
  · have h1 : ¬t.val % 8 = 7 := by omega
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    by_cases h1 : t.val % 8 = 7
    · rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold out0_C_7 out0_C_8 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _)
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters every weakly fair execution of @main terminates, every array of the
    pipeline at what the library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frm

end
-- ==== Proof.LstmSpec.lean ====
/-
  The LSTM cell's update as functions of whole arrays on the extended reals, and the one law that joins the
  kernel's arrangement of the pre-activation to the reference's.

  With x, h : [B, D], stacked weights Wx, Wh : [3H, D] and stacked biases bx, bh : [3H], the pre-activation is
      g(r, j) = ((Σ_k x(r,k)·Wx(j,k) + bx(j)) + Σ_k h(r,k)·Wh(j,k)) + bh(j)
  as the reference groups it. The kernel cuts the contraction axis into 8 steps of 256 columns, adds at each
  step the two partial products of that step to an accumulator, and adds both biases at the end:
      ((Σ_{s<8} (Σ_{k in step s} x·Wx + Σ_{k in step s} h·Wh)) + bx(j)) + bh(j).
  The two agree by commutativity and associativity of addition alone, which hold on the extended reals with
  the infinities included; nothing here needs the inputs finite. The gates then read three column bands of g:
      c'(r,j) = σ(g(r, H+j))·c(r,j) + σ(g(r, j))·tanh(g(r, H+j)),   h'(r,j) = σ(g(r, 2H+j))·tanh(c'(r,j)).
-/
import Idealize.ShloMosaic.Lib.ValueIdx
import Idealize.ShloMosaic.PureOps.Ideal.Laws

noncomputable section

namespace Cert.LstmSpec

open Idealize.ShloMosaic Idealize.ShloMosaic.ValueIdx

/-- A rank-2 array of extended reals. -/
abbrev Arr2 (a b : Nat) := (⟨2, ![a, b]⟩ : Shape).Idx → EReal
/-- A rank-1 array of extended reals. -/
abbrev Arr1 (a : Nat) := (⟨1, ![a]⟩ : Shape).Idx → EReal

/-- Column `kk` of contraction step `s` (for s < 8 this is 256·s + kk; the remainder keeps it a column for every s). -/
def colAt (s : ℕ) (kk : Fin 256) : Fin 2048 := ⟨(s * 256 + kk.val) % 2048, Nat.mod_lt _ (by norm_num)⟩

theorem colAt_val (s : ℕ) (hs : s < 8) (kk : Fin 256) : (colAt s kk).val = s * 256 + kk.val := by
  have := kk.isLt
  exact Nat.mod_eq_of_lt (by omega)

/-- Step `s`'s two partial products at row `R` of the activations and row `J` of the stacked weights. -/
def stepSum (X H : Arr2 8192 2048) (Wx Wh : Arr2 6144 2048) (R : Fin 8192) (J : Fin 6144) (s : ℕ) : EReal :=
  (∑ kk : Fin 256, X (ix2 R (colAt s kk)) * Wx (ix2 J (colAt s kk)))
    + ∑ kk : Fin 256, H (ix2 R (colAt s kk)) * Wh (ix2 J (colAt s kk))

/-- The pre-activation, grouped as the reference computes it. -/
def pre (X H : Arr2 8192 2048) (Wx Wh : Arr2 6144 2048) (bx bh : Arr1 6144) (R : Fin 8192) (J : Fin 6144) : EReal :=
  ((∑ k : Fin 2048, X (ix2 R k) * Wx (ix2 J k)) + bx (ix1 J) + ∑ k : Fin 2048, H (ix2 R k) * Wh (ix2 J k)) + bh (ix1 J)

/-- Summing step by step, 256 columns at a time, is summing over all 2048 columns. -/
theorem sum_steps (f : Fin 2048 → EReal) :
    ∑ s ∈ Finset.range 8, ∑ kk : Fin 256, f (colAt s kk) = ∑ k : Fin 2048, f k := by
  rw [Finset.sum_range]
  rw [← Equiv.sum_comp (finProdFinEquiv.trans (finCongr (by norm_num : 8 * 256 = 2048))) f, Fintype.sum_prod_type]
  refine Finset.sum_congr rfl fun s _ => Finset.sum_congr rfl fun kk _ => congrArg f (Fin.ext ?_)
  have h1 := s.isLt; have h2 := kk.isLt
  rw [colAt_val s.val h1 kk]
  simp only [Equiv.trans_apply, finCongr_apply, Fin.coe_cast, finProdFinEquiv_apply_val]
  omega

/-- THE LAW: the accumulated steps plus the two biases is the reference's pre-activation. -/
theorem steps_eq_pre (X H : Arr2 8192 2048) (Wx Wh : Arr2 6144 2048) (bx bh : Arr1 6144) (R : Fin 8192) (J : Fin 6144) :
    (∑ s ∈ Finset.range 8, stepSum X H Wx Wh R J s) + bx (ix1 J) + bh (ix1 J) = pre X H Wx Wh bx bh R J := by
  unfold pre stepSum
  rw [Finset.sum_add_distrib, sum_steps (fun k => X (ix2 R k) * Wx (ix2 J k)),
    sum_steps (fun k => H (ix2 R k) * Wh (ix2 J k)), add_right_comm (∑ k : Fin 2048, X (ix2 R k) * Wx (ix2 J k))]

/-- Column `j` of band `b` (0: input gate, 1: memory gate, 2: output gate) of the stacked axis. -/
def band (b : Fin 3) (j : Fin 2048) : Fin 6144 := ⟨b.val * 2048 + j.val, by have := b.isLt; have := j.isLt; omega⟩

/-- The new cell state from a pre-activation row. -/
def cNew (g : Fin 6144 → EReal) (cOld : EReal) (j : Fin 2048) : EReal :=
  Ideal.logistic (g (band 1 j)) * cOld + Ideal.logistic (g (band 0 j)) * Ideal.tanh (g (band 1 j))

/-- The new hidden state from a pre-activation row. -/
def hNew (g : Fin 6144 → EReal) (cOld : EReal) (j : Fin 2048) : EReal :=
  Ideal.logistic (g (band 2 j)) * Ideal.tanh (cNew g cOld j)

/-- The new cell state as one whole-array function of the arguments. -/
def Gc (X H C : Arr2 8192 2048) (Wx Wh : Arr2 6144 2048) (bx bh : Arr1 6144) : Arr2 8192 2048 :=
  fun i => cNew (pre X H Wx Wh bx bh (i 0)) (C (ix2 (i 0) (i 1))) (i 1)

/-- The new hidden state as one whole-array function of the arguments. -/
def Gh (X H C : Arr2 8192 2048) (Wx Wh : Arr2 6144 2048) (bx bh : Arr1 6144) : Arr2 8192 2048 :=
  fun i => hNew (pre X H Wx Wh bx bh (i 0)) (C (ix2 (i 0) (i 1))) (i 1)

end Cert.LstmSpec

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.KernelPayload.lean ====
/-
  The body's arithmetic read at an index on the extended reals.

  One contraction step adds to the accumulator, at (r, j), the step's two partial products
  Σ_k x(r,k)·Wx(j,k) + Σ_k h(r,k)·Wh(j,k) over the 256 columns of the step (the changes of float format are
  the identity, and a matrix product into a zero accumulator is the plain finite sum). The last step then adds
  the two bias rows, broadcast down the 256 rows, cuts the result into its three column bands and applies the gates.
-/
import proofs.«111936_j28020366639121_2_alg».proof.Proof.Gen.KernelIdeal.Skeleton
import proofs.«111936_j28020366639121_2_alg».proof.Proof.LstmSpec
import proofs.«111936_j28020366639121_2_alg».proof.Proof.LibMatmulNT
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.LstmSpec
open Idealize.ShloMosaic Idealize.ShloMosaic.ValueIdx Idealize.ShloMosaic.Pipeline

/-- The reset value of the accumulator is zero everywhere. -/
theorem reset_apply (i : S256x6144.Idx) : k0_pay1 (F := Ideal) i = 0 := by
  unfold k0_pay1
  refine (congrFun (shapeCast_self _ _) i).trans ?_
  exact Ideal.ofBits_zero_f32

/-- One step: the accumulator plus the step's two partial products. -/
theorem step_apply (x h : Vec Ideal S256x256 .f32) (s : Vec Ideal S256x6144 .f32) (wx wh : Vec Ideal S6144x256 .bf16)
    (r : Fin 256) (j : Fin 6144) :
    k0_pay2 x h s wx wh (ix2 r j)
      = s (ix2 r j) + ((∑ kk : Fin 256, x (ix2 r kk) * wx (ix2 j kk)) + ∑ kk : Fin 256, h (ix2 r kk) * wh (ix2 j kk)) := by
  have e1 := Cert.LibMatmulNT.matmul_nt_apply (M := 256) (N := 6144) (K := 256) (φ₁ := .bf16) (φ₂ := .bf16) dot_S256x256_S6144x256_S256x6144_1_1_0_0_n_n
    rfl rfl rfl rfl rfl rfl none (truncf .bf16 x bitsLt_bf16_f32) wx r j
  have e2 := Cert.LibMatmulNT.matmul_nt_apply (M := 256) (N := 6144) (K := 256) (φ₁ := .bf16) (φ₂ := .bf16) dot_S256x256_S6144x256_S256x6144_1_1_0_0_n_n
    rfl rfl rfl rfl rfl rfl none (truncf .bf16 h bitsLt_bf16_f32) wh r j
  unfold k0_pay2
  simp only [shapeCast_self]
  exact congrArg₂ (fun a b => s (ix2 r j) + (a + b)) e1 e2

/-- A bias row broadcast down the rows, read at (r, j), is the row at j. -/
theorem bias_row (v : Vec Ideal S1x6144 .f32) (r : Fin 256) (j : Fin 6144) :
    broadcastTo S256x6144 (shapeCast S1x6144 v shapeCasts_S1x6144_S1x6144) broadcasts_S1x6144_S256x6144 (ix2 r j) = v (ix2 0 j) := by
  rw [shapeCast_self]
  exact broadcastTo_apply v _ (ix2 r j) (ix2 0 j) (fun a => by
    match a with
    | ⟨0, _⟩ => rfl
    | ⟨1, _⟩ => rfl)

/-- The finished pre-activation block: the accumulator plus both bias rows. -/
theorem biased_apply (s : Vec Ideal S256x6144 .f32) (bx bh : Vec Ideal S1x6144 .f32) (r : Fin 256) (j : Fin 6144) :
    k0_pay3 s bx bh (ix2 r j) = s (ix2 r j) + bx (ix2 0 j) + bh (ix2 0 j) := by
  unfold k0_pay3
  exact congrArg₂ (fun a b => s (ix2 r j) + a + b) (bias_row bx r j) (bias_row bh r j)

/-- A column band of the pre-activation block. -/
theorem band0_apply (g : Vec Ideal S256x6144 .f32) (r : Fin 256) (j : Fin 2048) :
    extractStridedSlice S256x2048 ![0, 0] g slices_S256x6144_o0_0_S256x2048 (ix2 r j) = g (ix2 r (band 0 j)) :=
  extractStridedSlice_apply _ _ _ (ix2 r j) (ix2 r (band 0 j)) (fun a => by
    match a with
    | ⟨0, _⟩ => show r.val = 0 + r.val; omega
    | ⟨1, _⟩ => show 0 * 2048 + j.val = 0 + j.val; omega)
theorem band1_apply (g : Vec Ideal S256x6144 .f32) (r : Fin 256) (j : Fin 2048) :
    extractStridedSlice S256x2048 ![0, 2048] g slices_S256x6144_o0_2048_S256x2048 (ix2 r j) = g (ix2 r (band 1 j)) :=
  extractStridedSlice_apply _ _ _ (ix2 r j) (ix2 r (band 1 j)) (fun a => by
    match a with
    | ⟨0, _⟩ => show r.val = 0 + r.val; omega
    | ⟨1, _⟩ => show 1 * 2048 + j.val = 2048 + j.val; omega)
theorem band2_apply (g : Vec Ideal S256x6144 .f32) (r : Fin 256) (j : Fin 2048) :
    extractStridedSlice S256x2048 ![0, 4096] g slices_S256x6144_o0_4096_S256x2048 (ix2 r j) = g (ix2 r (band 2 j)) :=
  extractStridedSlice_apply _ _ _ (ix2 r j) (ix2 r (band 2 j)) (fun a => by
    match a with
    | ⟨0, _⟩ => show r.val = 0 + r.val; omega
    | ⟨1, _⟩ => show 2 * 2048 + j.val = 4096 + j.val; omega)

/-- The new cell state's block at (r, j), from the pre-activation row r. -/
theorem cell_apply (s : Vec Ideal S256x6144 .f32) (bx bh : Vec Ideal S1x6144 .f32) (cc : Vec Ideal S256x2048 .f32)
    (r : Fin 256) (j : Fin 2048) :
    k0_pay4 s bx bh cc (ix2 r j) = cNew (fun J => k0_pay3 s bx bh (ix2 r J)) (cc (ix2 r j)) j := by
  unfold k0_pay4
  exact congrArg₂ (fun a b => Ideal.logistic b * cc (ix2 r j) + Ideal.logistic a * Ideal.tanh b)
    (band0_apply (k0_pay3 s bx bh) r j) (band1_apply (k0_pay3 s bx bh) r j)

/-- The new hidden state's block at (r, j). -/
theorem hidden_apply (s : Vec Ideal S256x6144 .f32) (bx bh : Vec Ideal S1x6144 .f32) (cc : Vec Ideal S256x2048 .f32)
    (r : Fin 256) (j : Fin 2048) :
    k0_pay5 s bx bh cc (ix2 r j) = hNew (fun J => k0_pay3 s bx bh (ix2 r J)) (cc (ix2 r j)) j := by
  unfold k0_pay5
  exact congrArg₂ (fun a b => Ideal.logistic a * Ideal.tanh b)
    (band2_apply (k0_pay3 s bx bh) r j) (cell_apply s bx bh cc r j)

end Cert.KernelIdeal.Payload

end
-- ==== Proof.KernelValue.lean ====
/-
  What the LSTM-cell kernel's two result arrays hold after the run, as whole-array functions of the arguments.

  Point t = 8·b + k of the grid works on rows 256·b … 256·b + 255 of the activations and on columns
  256·k … 256·k + 255 of the contraction axis. By induction over the points, after point t the accumulator holds at
  (r, j) the sum of the contraction steps 0 … k of row 256·b + r against stacked-weight row j; so at k = 7 it
  holds all eight steps, the two biases are added, and by the law of the specification this is the reference's
  pre-activation. The output blocks stored there are the gate formulas of that row, and the blocks written back at
  the 32 points with k = 7 tile each result array.
-/
import proofs.«111936_j28020366639121_2_alg».proof.Proof.KernelIdealFrame.Frame
import proofs.«111936_j28020366639121_2_alg».proof.Proof.KernelPayload
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frm Cert.KernelIdeal.Payload Cert.LstmSpec
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl

/-! ## The found pieces are the payloads -/

/-- After a first step the accumulator is one step over zeros. -/
theorem sout_A_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : cond0_0 i) (hc1 : ¬cond0_1 i)
    (x0 : Vec Ideal S256x256 .f32) (x1 : Vec Ideal S256x256 .f32) (x2 : Vec Ideal S6144x256 .bf16) (x3 : Vec Ideal S6144x256 .bf16) (x4 : Vec Ideal S1x6144 .f32) (x5 : Vec Ideal S1x6144 .f32) (x6 : Vec Ideal S256x2048 .f32) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 = k0_pay2 x0 x1 (k0_pay1 (F := Ideal)) x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  rw [View.canon_cons_unit_zero hz2]
  sl_unfold_words
  simp only [View.readAt_eq_ld, harg2.read_unread, harg3.read_unread, harg4.read_unread, harg5.read_unread, harg6.read_unread, harg7.read_unread, harg8.read_unread, harg11.read_unread,
    View.ld_unit_zero (S := S256x256) hz2, View.ld_unit_zero (S := S6144x256) hz2, View.ld_unit_zero (S := S1x6144) hz2, View.ld_unit_zero (S := S256x2048) hz2, View.ld_unit_zero (S := S256x6144) hz2]
  rw [View.readCov_unit_zero (S := S256x6144) _ hz2]

/-- After a middle step the accumulator is one step over what it held. -/
theorem sout_B_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : ¬cond0_1 i)
    (x0 : Vec Ideal S256x256 .f32) (x1 : Vec Ideal S256x256 .f32) (x2 : Vec Ideal S6144x256 .bf16) (x3 : Vec Ideal S6144x256 .bf16) (x4 : Vec Ideal S1x6144 .f32) (x5 : Vec Ideal S1x6144 .f32) (x6 : Vec Ideal S256x2048 .f32) (xs0 : Vec Ideal S256x6144 .f32) :
    sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = k0_pay2 x0 x1 xs0 x2 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  rw [View.canon_unit_zero hz2]
  sl_unfold_words
  simp only [View.readAt_eq_ld, harg2.read_unread, harg3.read_unread, harg4.read_unread, harg5.read_unread, harg6.read_unread, harg7.read_unread, harg8.read_unread, harg11.read_unread,
    View.ld_unit_zero (S := S256x256) hz2, View.ld_unit_zero (S := S6144x256) hz2, View.ld_unit_zero (S := S1x6144) hz2, View.ld_unit_zero (S := S256x2048) hz2, View.ld_unit_zero (S := S256x6144) hz2]

/-- After a last step likewise. -/
theorem sout_C_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec Ideal S256x256 .f32) (x1 : Vec Ideal S256x256 .f32) (x2 : Vec Ideal S6144x256 .bf16) (x3 : Vec Ideal S6144x256 .bf16) (x4 : Vec Ideal S1x6144 .f32) (x5 : Vec Ideal S1x6144 .f32) (x6 : Vec Ideal S256x2048 .f32) (xs0 : Vec Ideal S256x6144 .f32) :
    sout0_C_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = k0_pay2 x0 x1 xs0 x2 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg11.read_unread,
    View.ld_unit_zero (S := S256x256) hz2, View.ld_unit_zero (S := S6144x256) hz2, View.ld_unit_zero (S := S1x6144) hz2, View.ld_unit_zero (S := S256x2048) hz2, View.ld_unit_zero (S := S256x6144) hz2]

/-- The hidden-state block stored at a last step, from the finished accumulator. -/
theorem out7_C_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec Ideal S256x256 .f32) (x1 : Vec Ideal S256x256 .f32) (x2 : Vec Ideal S6144x256 .bf16) (x3 : Vec Ideal S6144x256 .bf16) (x4 : Vec Ideal S1x6144 .f32) (x5 : Vec Ideal S1x6144 .f32) (x6 : Vec Ideal S256x2048 .f32) (xs0 : Vec Ideal S256x6144 .f32) :
    out0_C_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = k0_pay5 (k0_pay2 x0 x1 xs0 x2 x3) x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  rw [View.canon_unit_zero hz2]
  sl_unfold_words
  simp only [View.readAt_eq_ld, harg2.read_unread, harg3.read_unread, harg4.read_unread, harg5.read_unread, harg6.read_unread, harg7.read_unread, harg8.read_unread, harg11.read_unread,
    View.ld_unit_zero (S := S256x256) hz2, View.ld_unit_zero (S := S6144x256) hz2, View.ld_unit_zero (S := S1x6144) hz2, View.ld_unit_zero (S := S256x2048) hz2, View.ld_unit_zero (S := S256x6144) hz2]
  rw [View.readCov_unit_zero (S := S256x6144) _ hz2]

/-- The cell-state block stored at a last step. -/
theorem out8_C_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S6144x256 .bf16) (harg4 : arg4.IsWhole) (arg5 : Memref sig .tc .vmem S6144x256 .bf16) (harg5 : arg5.IsWhole) (arg6 : Memref sig .tc .vmem S1x6144 .f32) (harg6 : arg6.IsWhole) (arg7 : Memref sig .tc .vmem S1x6144 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x6144 .f32) (harg11 : arg11.IsWhole) (hc0 : ¬cond0_0 i) (hc1 : cond0_1 i)
    (x0 : Vec Ideal S256x256 .f32) (x1 : Vec Ideal S256x256 .f32) (x2 : Vec Ideal S6144x256 .bf16) (x3 : Vec Ideal S6144x256 .bf16) (x4 : Vec Ideal S1x6144 .f32) (x5 : Vec Ideal S1x6144 .f32) (x6 : Vec Ideal S256x2048 .f32) (xs0 : Vec Ideal S256x6144 .f32) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 xs0 = k0_pay4 (k0_pay2 x0 x1 xs0 x2 x3) x4 x5 x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  rw [View.canon_unit_zero hz2]
  sl_unfold_words
  simp only [View.readAt_eq_ld, harg2.read_unread, harg3.read_unread, harg4.read_unread, harg5.read_unread, harg6.read_unread, harg7.read_unread, harg8.read_unread, harg11.read_unread,
    View.ld_unit_zero (S := S256x256) hz2, View.ld_unit_zero (S := S6144x256) hz2, View.ld_unit_zero (S := S1x6144) hz2, View.ld_unit_zero (S := S256x2048) hz2, View.ld_unit_zero (S := S256x6144) hz2]
  rw [View.readCov_unit_zero (S := S256x6144) _ hz2]

/-! ## The blocks, against the printed index maps -/

theorem idx_0 : ∀ t : Fin cfg0.N, win0_0.index t (0 : Fin 2) = t.val / 8 ∧ win0_0.index t (1 : Fin 2) = t.val % 8 :=
  (by decide +kernel : ∀ t : Fin grid0.N, _)
theorem idx_1 : ∀ t : Fin cfg0.N, win0_1.index t (0 : Fin 2) = t.val / 8 ∧ win0_1.index t (1 : Fin 2) = t.val % 8 :=
  (by decide +kernel : ∀ t : Fin grid0.N, _)
theorem idx_2 : ∀ t : Fin cfg0.N, win0_2.index t (0 : Fin 2) = 0 ∧ win0_2.index t (1 : Fin 2) = t.val % 8 :=
  (by decide +kernel : ∀ t : Fin grid0.N, _)
theorem idx_3 : ∀ t : Fin cfg0.N, win0_3.index t (0 : Fin 2) = 0 ∧ win0_3.index t (1 : Fin 2) = t.val % 8 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = t.val / 8 ∧ win0_6.index t (1 : Fin 2) = 0 :=
  (by decide +kernel : ∀ t : Fin grid0.N, _)
theorem idx_7 : ∀ t : Fin cfg0.N, win0_7.index t (0 : Fin 2) = t.val / 8 ∧ win0_7.index t (1 : Fin 2) = 0 :=
  (by decide +kernel : ∀ t : Fin grid0.N, _)
theorem idx_8 : ∀ t : Fin cfg0.N, win0_8.index t (0 : Fin 2) = t.val / 8 ∧ win0_8.index t (1 : Fin 2) = 0 :=
  (by decide +kernel : ∀ t : Fin grid0.N, _)

theorem tlt (t : Fin cfg0.N) : t.val < 256 := lt_of_lt_of_eq t.isLt (show cfg0.N = 256 from N_0)

/-- The array row that row `r` of point `t`'s batch tile is. -/
def rowOf (t : Fin cfg0.N) (r : Fin 256) : Fin 8192 := ⟨t.val / 8 * 256 + r.val, by have := tlt t; have := r.isLt; omega⟩

/-- A [1, n] array as a vector. -/
def rowVec (v : Arr2 1 6144) : Arr1 6144 := fun i => v (ix2 0 (i 0))

theorem blk0_apply (c : Dev nD) (t : Fin cfg0.N) (r kk : Fin 256) :
    iblk m c 0 t (ix2 r kk) = V m c main_arg0 (ix2 (rowOf t r) (colAt (t.val % 8) kk)) := by
  obtain ⟨e0, e1⟩ := idx_0 t
  have hc := colAt_val (t.val % 8) (by omega) kk
  show V m c main_arg0 (((cfg0.win 0).blk t).view.emb (ix2 r kk)) = _
  refine congrArg _ (funext fun a => Fin.ext ?_)
  match a with
  | ⟨0, _⟩ => show win0_0.index t (0 : Fin 2) * 256 + 1 * r.val = t.val / 8 * 256 + r.val; omega
  | ⟨1, _⟩ => show win0_0.index t (1 : Fin 2) * 256 + 1 * kk.val = (colAt (t.val % 8) kk).val; omega

theorem blk1_apply (c : Dev nD) (t : Fin cfg0.N) (r kk : Fin 256) :
    iblk m c 1 t (ix2 r kk) = V m c main_arg1 (ix2 (rowOf t r) (colAt (t.val % 8) kk)) := by
  obtain ⟨e0, e1⟩ := idx_1 t
  have hc := colAt_val (t.val % 8) (by omega) kk
  show V m c main_arg1 (((cfg0.win 1).blk t).view.emb (ix2 r kk)) = _
  refine congrArg _ (funext fun a => Fin.ext ?_)
  match a with
  | ⟨0, _⟩ => show win0_1.index t (0 : Fin 2) * 256 + 1 * r.val = t.val / 8 * 256 + r.val; omega
  | ⟨1, _⟩ => show win0_1.index t (1 : Fin 2) * 256 + 1 * kk.val = (colAt (t.val % 8) kk).val; omega

theorem blk2_apply (c : Dev nD) (t : Fin cfg0.N) (j : Fin 6144) (kk : Fin 256) :
    iblk m c 2 t (ix2 j kk) = V m c main_v1 (ix2 j (colAt (t.val % 8) kk)) := by
  obtain ⟨e0, e1⟩ := idx_2 t
  have hc := colAt_val (t.val % 8) (by omega) kk
  show V m c main_v1 (((cfg0.win 2).blk t).view.emb (ix2 j kk)) = _
  refine congrArg _ (funext fun a => Fin.ext ?_)
  match a with
  | ⟨0, _⟩ => show win0_2.index t (0 : Fin 2) * 6144 + 1 * j.val = j.val; omega
  | ⟨1, _⟩ => show win0_2.index t (1 : Fin 2) * 256 + 1 * kk.val = (colAt (t.val % 8) kk).val; omega

theorem blk3_apply (c : Dev nD) (t : Fin cfg0.N) (j : Fin 6144) (kk : Fin 256) :
    iblk m c 3 t (ix2 j kk) = V m c main_v3 (ix2 j (colAt (t.val % 8) kk)) := by
  obtain ⟨e0, e1⟩ := idx_3 t
  have hc := colAt_val (t.val % 8) (by omega) kk
  show V m c main_v3 (((cfg0.win 3).blk t).view.emb (ix2 j kk)) = _
  refine congrArg _ (funext fun a => Fin.ext ?_)
  match a with
  | ⟨0, _⟩ => show win0_3.index t (0 : Fin 2) * 6144 + 1 * j.val = j.val; omega
  | ⟨1, _⟩ => show win0_3.index t (1 : Fin 2) * 256 + 1 * kk.val = (colAt (t.val % 8) kk).val; omega

theorem blk4_apply (c : Dev nD) (t : Fin cfg0.N) (j : Fin 6144) :
    iblk m c 4 t (ix2 0 j) = V m c main_v5 (ix2 0 j) := by
  obtain ⟨e0, e1⟩ := idx_4 t
  show V m c main_v5 (((cfg0.win 4).blk t).view.emb (ix2 0 j)) = _
  refine congrArg _ (funext fun a => Fin.ext ?_)
  match a with
  | ⟨0, _⟩ => show win0_4.index t (0 : Fin 2) * 1 + 1 * 0 = 0; omega
  | ⟨1, _⟩ => show win0_4.index t (1 : Fin 2) * 6144 + 1 * j.val = j.val; omega

theorem blk5_apply (c : Dev nD) (t : Fin cfg0.N) (j : Fin 6144) :
    iblk m c 5 t (ix2 0 j) = V m c main_v7 (ix2 0 j) := by
  obtain ⟨e0, e1⟩ := idx_5 t
  show V m c main_v7 (((cfg0.win 5).blk t).view.emb (ix2 0 j)) = _
  refine congrArg _ (funext fun a => Fin.ext ?_)
  match a with
  | ⟨0, _⟩ => show win0_5.index t (0 : Fin 2) * 1 + 1 * 0 = 0; omega
  | ⟨1, _⟩ => show win0_5.index t (1 : Fin 2) * 6144 + 1 * j.val = j.val; omega

theorem blk6_apply (c : Dev nD) (t : Fin cfg0.N) (r : Fin 256) (j : Fin 2048) :
    iblk m c 6 t (ix2 r j) = V m c main_arg2 (ix2 (rowOf t r) j) := by
  obtain ⟨e0, e1⟩ := idx_6 t
  show V m c main_arg2 (((cfg0.win 6).blk t).view.emb (ix2 r j)) = _
  refine congrArg _ (funext fun a => Fin.ext ?_)
  match a with
  | ⟨0, _⟩ => show win0_6.index t (0 : Fin 2) * 256 + 1 * r.val = t.val / 8 * 256 + r.val; omega
  | ⟨1, _⟩ => show win0_6.index t (1 : Fin 2) * 2048 + 1 * j.val = j.val; omega

/-! ## The accumulator, point by point -/

/-- One step at point `t`, on any accumulator contents: they plus step `t mod 8` of the point's rows. -/
theorem step_at (c : Dev nD) (t : Fin cfg0.N) (s : Vec Ideal S256x6144 .f32) (r : Fin 256) (j : Fin 6144) :
    k0_pay2 (iblk m c 0 t) (iblk m c 1 t) s (iblk m c 2 t) (iblk m c 3 t) (ix2 r j)
      = s (ix2 r j) + stepSum (V m c main_arg0) (V m c main_arg1) (V m c main_v1) (V m c main_v3) (rowOf t r) j (t.val % 8) :=
  (step_apply (iblk m c 0 t) (iblk m c 1 t) s (iblk m c 2 t) (iblk m c 3 t) r j).trans
    (congrArg (fun z => s (ix2 r j) + z) (congrArg₂ (fun a b => a + b)
      (Finset.sum_congr rfl fun kk _ => congrArg₂ (fun a b => a * b) (blk0_apply m c t r kk) (blk2_apply m c t j kk))
      (Finset.sum_congr rfl fun kk _ => congrArg₂ (fun a b => a * b) (blk1_apply m c t r kk) (blk3_apply m c t j kk))))

/-- THE INVARIANT: after point `t` the accumulator holds steps 0 … `t mod 8` of the point's rows. -/
theorem acc_inv (c : Dev nD) : ∀ (n : ℕ) (t : Fin cfg0.N), t.val = n → ∀ (r : Fin 256) (j : Fin 6144),
    (outsAt0 m c t.val t.isLt).2.2 (ix2 r j) = ∑ s ∈ Finset.range (t.val % 8 + 1), stepSum (V m c main_arg0) (V m c main_arg1) (V m c main_v1) (V m c main_v3) (rowOf t r) j s := by
  intro n
  induction n with
  | zero =>
    intro t ht r j
    have h0 : t.val % 8 = 0 := by rw [ht]
    have h1 : ¬t.val % 8 = 7 := by omega
    rw [outsAt0_A m c t h0 h1]
    dsimp only
    rw [sout_A_eq]
    refine (step_at m c t _ r j).trans ?_
    rw [reset_apply, zero_add, h0, Finset.sum_range_one]
  | succ n ih =>
    intro t ht r j
    by_cases h0 : t.val % 8 = 0
    · have h1 : ¬t.val % 8 = 7 := by omega
      rw [outsAt0_A m c t h0 h1]
      dsimp only
      rw [sout_A_eq]
      refine (step_at m c t _ r j).trans ?_
      rw [reset_apply, zero_add, h0, Finset.sum_range_one]
    · have hlt : t.val - 1 < cfg0.N := Nat.lt_of_le_of_lt (Nat.sub_le _ _) t.isLt
      have prev : (outsAt0 m c (t.val - 1) hlt).2.2 (ix2 r j)
          = ∑ s ∈ Finset.range ((t.val - 1) % 8 + 1), stepSum (V m c main_arg0) (V m c main_arg1) (V m c main_v1) (V m c main_v3) (rowOf ⟨t.val - 1, hlt⟩ r) j s :=
        ih ⟨t.val - 1, hlt⟩ (by show t.val - 1 = n; omega) r j
      have hrow : rowOf ⟨t.val - 1, hlt⟩ r = rowOf t r := Fin.ext (by show (t.val - 1) / 8 * 256 + r.val = t.val / 8 * 256 + r.val; omega)
      have hk : (t.val - 1) % 8 + 1 = t.val % 8 := by omega
      rw [hrow, hk] at prev
      by_cases h1 : t.val % 8 = 7
      · rw [outsAt0_C m c t h0 h1]
        dsimp only
        rw [sout_C_eq]
        refine (step_at m c t _ r j).trans ?_
        rw [prev, Finset.sum_range_succ]
      · rw [outsAt0_B m c t h0 h1]
        dsimp only
        rw [sout_B_eq]
        refine (step_at m c t _ r j).trans ?_
        rw [prev, Finset.sum_range_succ]

/-- At a last step the finished pre-activation block, biases added, is the reference's pre-activation of the point's rows. -/
theorem pre_at (c : Dev nD) (t : Fin cfg0.N) (h1 : t.val % 8 = 7) (r : Fin 256) (J : Fin 6144) :
    k0_pay3 ((outsAt0 m c t.val t.isLt).2.2) (iblk m c 4 t) (iblk m c 5 t) (ix2 r J)
      = pre (V m c main_arg0) (V m c main_arg1) (V m c main_v1) (V m c main_v3) (rowVec (V m c main_v5)) (rowVec (V m c main_v7)) (rowOf t r) J := by
  refine (biased_apply _ (iblk m c 4 t) (iblk m c 5 t) r J).trans ?_
  rw [acc_inv m c t.val t rfl r J, h1, blk4_apply m c t J, blk5_apply m c t J]
  exact steps_eq_pre _ _ _ _ (rowVec (V m c main_v5)) (rowVec (V m c main_v7)) (rowOf t r) J

/-- The hidden-state block stored at a last step, index by index. -/
theorem out7_at (c : Dev nD) (t : Fin cfg0.N) (h0 : ¬t.val % 8 = 0) (h1 : t.val % 8 = 7) (r : Fin 256) (j : Fin 2048) :
    (outsAt0 m c t.val t.isLt).1 (ix2 r j) = Gh (V m c main_arg0) (V m c main_arg1) (V m c main_arg2) (V m c main_v1) (V m c main_v3) (rowVec (V m c main_v5)) (rowVec (V m c main_v7)) (ix2 (rowOf t r) j) := by
  have e7 : (outsAt0 m c t.val t.isLt).1
      = k0_pay5 ((outsAt0 m c t.val t.isLt).2.2) (iblk m c 4 t) (iblk m c 5 t) (iblk m c 6 t) := by
    rw [outsAt0_C m c t h0 h1]
    dsimp only
    rw [out7_C_eq, sout_C_eq]
  have hp : (fun J => k0_pay3 ((outsAt0 m c t.val t.isLt).2.2) (iblk m c 4 t) (iblk m c 5 t) (ix2 r J))
      = pre (V m c main_arg0) (V m c main_arg1) (V m c main_v1) (V m c main_v3) (rowVec (V m c main_v5)) (rowVec (V m c main_v7)) (rowOf t r) :=
    funext fun J => pre_at m c t h1 r J
  rw [e7]
  refine (hidden_apply _ (iblk m c 4 t) (iblk m c 5 t) (iblk m c 6 t) r j).trans ?_
  rw [blk6_apply m c t r j, hp]
  rfl

/-- The cell-state block stored at a last step, index by index. -/
theorem out8_at (c : Dev nD) (t : Fin cfg0.N) (h0 : ¬t.val % 8 = 0) (h1 : t.val % 8 = 7) (r : Fin 256) (j : Fin 2048) :
    (outsAt0 m c t.val t.isLt).2.1 (ix2 r j) = Gc (V m c main_arg0) (V m c main_arg1) (V m c main_arg2) (V m c main_v1) (V m c main_v3) (rowVec (V m c main_v5)) (rowVec (V m c main_v7)) (ix2 (rowOf t r) j) := by
  have e8 : (outsAt0 m c t.val t.isLt).2.1
      = k0_pay4 ((outsAt0 m c t.val t.isLt).2.2) (iblk m c 4 t) (iblk m c 5 t) (iblk m c 6 t) := by
    rw [outsAt0_C m c t h0 h1]
    dsimp only
    rw [out8_C_eq, sout_C_eq]
  have hp : (fun J => k0_pay3 ((outsAt0 m c t.val t.isLt).2.2) (iblk m c 4 t) (iblk m c 5 t) (ix2 r J))
      = pre (V m c main_arg0) (V m c main_arg1) (V m c main_v1) (V m c main_v3) (rowVec (V m c main_v5)) (rowVec (V m c main_v7)) (rowOf t r) :=
    funext fun J => pre_at m c t h1 r J
  rw [e8]
  refine (cell_apply _ (iblk m c 4 t) (iblk m c 5 t) (iblk m c 6 t) r j).trans ?_
  rw [blk6_apply m c t r j, hp]
  rfl

/-! ## The blocks written back tile the result arrays -/

theorem emb7 (t : Fin cfg0.N) (r : Fin 256) (j : Fin 2048) : ((cfg0.win 7).blk t).view.emb (ix2 r j) = ix2 (rowOf t r) j := by
  obtain ⟨e0, e1⟩ := idx_7 t
  funext a; apply Fin.ext
  match a with
  | ⟨0, _⟩ => show win0_7.index t (0 : Fin 2) * 256 + 1 * r.val = t.val / 8 * 256 + r.val; omega
  | ⟨1, _⟩ => show win0_7.index t (1 : Fin 2) * 2048 + 1 * j.val = j.val; omega

/-- What a point with k = 7 writes back is its block of the whole-array function. -/
theorem flushed7_eq (c : Dev nD) (t : Fin cfg0.N) (hf : (cfg0.win 7).flush t = true) :
    (dats m 0 c).flushed 7 t = ((cfg0.win 7).blk t).view.read (Elt Ideal) (Gh (V m c main_arg0) (V m c main_arg1) (V m c main_arg2) (V m c main_v1) (V m c main_v3) (rowVec (V m c main_v5)) (rowVec (V m c main_v7))) := by
  have h1 : t.val % 8 = 7 := (flush0_7 t).mp hf
  have h0 : ¬t.val % 8 = 0 := by omega
  show (cfg0.win 7).cut (grid0.coords t) ((dats m 0 c).after 7 t) = _
  rw [after0_7]
  funext y
  show (outsAt0 m c t.val t.isLt).1 y = Gh (V m c main_arg0) (V m c main_arg1) (V m c main_arg2) (V m c main_v1) (V m c main_v3) (rowVec (V m c main_v5)) (rowVec (V m c main_v7)) (((cfg0.win 7).blk t).view.emb y)
  obtain ⟨r, j, rfl⟩ : ∃ (r : Fin 256) (j : Fin 2048), y = ix2 r j := ⟨y 0, y 1, eq_ix2 y⟩
  rw [emb7 t r j]
  exact out7_at m c t h0 h1 r j

theorem mem_blk7 (t : Fin cfg0.N) (i : S8192x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v8_0).slice (win0_7.rect t)).set ↔ _
  rw [View.set_slice_whole, Rect.mem_set_unit]
  exact Iff.rfl

/-- Every row of the result lies in the block of the last step of its batch tile. -/
theorem cover7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  have hN : cfg0.N = 256 := N_0
  have ht : (i 0).val / 256 * 8 + 7 < cfg0.N := by omega
  obtain ⟨e0, e1⟩ := idx_7 ⟨(i 0).val / 256 * 8 + 7, ht⟩
  have e0' : win0_7.index ⟨(i 0).val / 256 * 8 + 7, ht⟩ (0 : Fin 2) = ((i 0).val / 256 * 8 + 7) / 8 := e0
  refine ⟨⟨(i 0).val / 256 * 8 + 7, ht⟩, (flush0_7 _).mpr (by show ((i 0).val / 256 * 8 + 7) % 8 = 7; omega), ?_⟩
  rw [mem_blk7]
  intro a
  match a with
  | ⟨0, _⟩ => show win0_7.index ⟨(i 0).val / 256 * 8 + 7, ht⟩ (0 : Fin 2) * 256 ≤ (i 0).val ∧ (i 0).val < win0_7.index ⟨(i 0).val / 256 * 8 + 7, ht⟩ (0 : Fin 2) * 256 + 256; omega
  | ⟨1, _⟩ => show win0_7.index ⟨(i 0).val / 256 * 8 + 7, ht⟩ (1 : Fin 2) * 2048 ≤ (i 1).val ∧ (i 1).val < win0_7.index ⟨(i 0).val / 256 * 8 + 7, ht⟩ (1 : Fin 2) * 2048 + 2048; omega

/-- The result array after the run. -/
theorem final7_V (c : Dev nD) : (dats m 0 c).arrAt 7 cfg0.N = Gh (V m c main_arg0) (V m c main_arg1) (V m c main_arg2) (V m c main_v1) (V m c main_v3) (rowVec (V m c main_v5)) (rowVec (V m c main_v7)) :=
  (dats m 0 c).arrAt_eq_of_cover 7 (Gh (V m c main_arg0) (V m c main_arg1) (V m c main_arg2) (V m c main_v1) (V m c main_v3) (rowVec (V m c main_v5)) (rowVec (V m c main_v7))) (fun t hf => flushed7_eq m c t hf) cover7

theorem emb8 (t : Fin cfg0.N) (r : Fin 256) (j : Fin 2048) : ((cfg0.win 8).blk t).view.emb (ix2 r j) = ix2 (rowOf t r) j := by
  obtain ⟨e0, e1⟩ := idx_8 t
  funext a; apply Fin.ext
  match a with
  | ⟨0, _⟩ => show win0_8.index t (0 : Fin 2) * 256 + 1 * r.val = t.val / 8 * 256 + r.val; omega
  | ⟨1, _⟩ => show win0_8.index t (1 : Fin 2) * 2048 + 1 * j.val = j.val; omega

/-- What a point with k = 7 writes back is its block of the whole-array function. -/
theorem flushed8_eq (c : Dev nD) (t : Fin cfg0.N) (hf : (cfg0.win 8).flush t = true) :
    (dats m 0 c).flushed 8 t = ((cfg0.win 8).blk t).view.read (Elt Ideal) (Gc (V m c main_arg0) (V m c main_arg1) (V m c main_arg2) (V m c main_v1) (V m c main_v3) (rowVec (V m c main_v5)) (rowVec (V m c main_v7))) := by
  have h1 : t.val % 8 = 7 := (flush0_8 t).mp hf
  have h0 : ¬t.val % 8 = 0 := by omega
  show (cfg0.win 8).cut (grid0.coords t) ((dats m 0 c).after 8 t) = _
  rw [after0_8]
  funext y
  show (outsAt0 m c t.val t.isLt).2.1 y = Gc (V m c main_arg0) (V m c main_arg1) (V m c main_arg2) (V m c main_v1) (V m c main_v3) (rowVec (V m c main_v5)) (rowVec (V m c main_v7)) (((cfg0.win 8).blk t).view.emb y)
  obtain ⟨r, j, rfl⟩ : ∃ (r : Fin 256) (j : Fin 2048), y = ix2 r j := ⟨y 0, y 1, eq_ix2 y⟩
  rw [emb8 t r j]
  exact out8_at m c t h0 h1 r j

theorem mem_blk8 (t : Fin cfg0.N) (i : S8192x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v8_1).slice (win0_8.rect t)).set ↔ _
  rw [View.set_slice_whole, Rect.mem_set_unit]
  exact Iff.rfl

/-- Every row of the result lies in the block of the last step of its batch tile. -/
theorem cover8 (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  have hN : cfg0.N = 256 := N_0
  have ht : (i 0).val / 256 * 8 + 7 < cfg0.N := by omega
  obtain ⟨e0, e1⟩ := idx_8 ⟨(i 0).val / 256 * 8 + 7, ht⟩
  have e0' : win0_8.index ⟨(i 0).val / 256 * 8 + 7, ht⟩ (0 : Fin 2) = ((i 0).val / 256 * 8 + 7) / 8 := e0
  refine ⟨⟨(i 0).val / 256 * 8 + 7, ht⟩, (flush0_8 _).mpr (by show ((i 0).val / 256 * 8 + 7) % 8 = 7; omega), ?_⟩
  rw [mem_blk8]
  intro a
  match a with
  | ⟨0, _⟩ => show win0_8.index ⟨(i 0).val / 256 * 8 + 7, ht⟩ (0 : Fin 2) * 256 ≤ (i 0).val ∧ (i 0).val < win0_8.index ⟨(i 0).val / 256 * 8 + 7, ht⟩ (0 : Fin 2) * 256 + 256; omega
  | ⟨1, _⟩ => show win0_8.index ⟨(i 0).val / 256 * 8 + 7, ht⟩ (1 : Fin 2) * 2048 ≤ (i 1).val ∧ (i 1).val < win0_8.index ⟨(i 0).val / 256 * 8 + 7, ht⟩ (1 : Fin 2) * 2048 + 2048; omega

/-- The result array after the run. -/
theorem final8_V (c : Dev nD) : (dats m 0 c).arrAt 8 cfg0.N = Gc (V m c main_arg0) (V m c main_arg1) (V m c main_arg2) (V m c main_v1) (V m c main_v3) (rowVec (V m c main_v5)) (rowVec (V m c main_v7)) :=
  (dats m 0 c).arrAt_eq_of_cover 8 (Gc (V m c main_arg0) (V m c main_arg1) (V m c main_arg2) (V m c main_v1) (V m c main_v3) (rowVec (V m c main_v5)) (rowVec (V m c main_v7))) (fun t hf => flushed8_eq m c t hf) cover8

/-! ## The stacked weights and biases as the region finds them -/

/-- The stacked input-to-hidden weights: the concatenation of the three argument matrices (the change of float
    format is the identity on the extended reals). -/
theorem V_Wx (c : Dev nD) : (V m c main_v1 : Arr2 6144 2048) = (concatenate S6144x2048 0 [⟨S2048x2048, (m ((c : Thread nD τ).loc main_arg3))⟩, ⟨S2048x2048, (m ((c : Thread nD τ).loc main_arg5))⟩, ⟨S2048x2048, (m ((c : Thread nD τ).loc main_arg7))⟩] concatenates_S2048x2048_S2048x2048_S2048x2048_S6144x2048_d0) := by
  dsimp only [V, hostOps0]; after_results; rfl

theorem V_Wh (c : Dev nD) : (V m c main_v3 : Arr2 6144 2048) = (concatenate S6144x2048 0 [⟨S2048x2048, (m ((c : Thread nD τ).loc main_arg9))⟩, ⟨S2048x2048, (m ((c : Thread nD τ).loc main_arg11))⟩, ⟨S2048x2048, (m ((c : Thread nD τ).loc main_arg13))⟩] concatenates_S2048x2048_S2048x2048_S2048x2048_S6144x2048_d0) := by
  dsimp only [V, hostOps0]; after_results; rfl

/-- A vector reshaped to a row and read back as a vector is itself. -/
theorem rowVec_reshape (v : Arr1 6144) (h : S6144.ShapeCasts S1x6144) : rowVec (shapeCast S1x6144 v h) = v := by
  funext i
  show shapeCast S1x6144 v h (ix2 0 (i 0)) = v i
  refine shapeCast_apply v h (ix2 0 (i 0)) i ?_
  rw [Shape.rowMajor_val_one, Shape.rowMajor_val_two]
  show (i 0).val = 0 * 6144 + (i 0).val
  omega

theorem V_bx (c : Dev nD) : rowVec (V m c main_v5) = (concatenate S6144 0 [⟨S2048, (m ((c : Thread nD τ).loc main_arg4))⟩, ⟨S2048, (m ((c : Thread nD τ).loc main_arg6))⟩, ⟨S2048, (m ((c : Thread nD τ).loc main_arg8))⟩] concatenates_S2048_S2048_S2048_S6144_d0) := by
  have e : (V m c main_v5 : Arr2 1 6144) = shapeCast S1x6144 (concatenate S6144 0 [⟨S2048, (m ((c : Thread nD τ).loc main_arg4))⟩, ⟨S2048, (m ((c : Thread nD τ).loc main_arg6))⟩, ⟨S2048, (m ((c : Thread nD τ).loc main_arg8))⟩] concatenates_S2048_S2048_S2048_S6144_d0) shapeCasts_S6144_S1x6144 := by
    dsimp only [V, hostOps0]; after_results; rfl
  rw [e, rowVec_reshape]

theorem V_bh (c : Dev nD) : rowVec (V m c main_v7) = (concatenate S6144 0 [⟨S2048, (m ((c : Thread nD τ).loc main_arg10))⟩, ⟨S2048, (m ((c : Thread nD τ).loc main_arg12))⟩, ⟨S2048, (m ((c : Thread nD τ).loc main_arg14))⟩] concatenates_S2048_S2048_S2048_S6144_d0) := by
  have e : (V m c main_v7 : Arr2 1 6144) = shapeCast S1x6144 (concatenate S6144 0 [⟨S2048, (m ((c : Thread nD τ).loc main_arg10))⟩, ⟨S2048, (m ((c : Thread nD τ).loc main_arg12))⟩, ⟨S2048, (m ((c : Thread nD τ).loc main_arg14))⟩] concatenates_S2048_S2048_S2048_S6144_d0) shapeCasts_S6144_S1x6144 := by
    dsimp only [V, hostOps0]; after_results; rfl
  rw [e, rowVec_reshape]

/-- The new hidden state's array after the run, as a function of the argument arrays. -/
theorem final7 (c : Dev nD) : (dats m 0 c).arrAt 7 cfg0.N = Gh (m ((c : Thread nD τ).loc main_arg0)) (m ((c : Thread nD τ).loc main_arg1)) (m ((c : Thread nD τ).loc main_arg2)) (concatenate S6144x2048 0 [⟨S2048x2048, (m ((c : Thread nD τ).loc main_arg3))⟩, ⟨S2048x2048, (m ((c : Thread nD τ).loc main_arg5))⟩, ⟨S2048x2048, (m ((c : Thread nD τ).loc main_arg7))⟩] concatenates_S2048x2048_S2048x2048_S2048x2048_S6144x2048_d0) (concatenate S6144x2048 0 [⟨S2048x2048, (m ((c : Thread nD τ).loc main_arg9))⟩, ⟨S2048x2048, (m ((c : Thread nD τ).loc main_arg11))⟩, ⟨S2048x2048, (m ((c : Thread nD τ).loc main_arg13))⟩] concatenates_S2048x2048_S2048x2048_S2048x2048_S6144x2048_d0) (concatenate S6144 0 [⟨S2048, (m ((c : Thread nD τ).loc main_arg4))⟩, ⟨S2048, (m ((c : Thread nD τ).loc main_arg6))⟩, ⟨S2048, (m ((c : Thread nD τ).loc main_arg8))⟩] concatenates_S2048_S2048_S2048_S6144_d0) (concatenate S6144 0 [⟨S2048, (m ((c : Thread nD τ).loc main_arg10))⟩, ⟨S2048, (m ((c : Thread nD τ).loc main_arg12))⟩, ⟨S2048, (m ((c : Thread nD τ).loc main_arg14))⟩] concatenates_S2048_S2048_S2048_S6144_d0) := by
  rw [final7_V, V_main_arg0, V_main_arg1, V_main_arg2, V_Wx, V_Wh, V_bx, V_bh]

/-- The new cell state's array after the run. -/
theorem final8 (c : Dev nD) : (dats m 0 c).arrAt 8 cfg0.N = Gc (m ((c : Thread nD τ).loc main_arg0)) (m ((c : Thread nD τ).loc main_arg1)) (m ((c : Thread nD τ).loc main_arg2)) (concatenate S6144x2048 0 [⟨S2048x2048, (m ((c : Thread nD τ).loc main_arg3))⟩, ⟨S2048x2048, (m ((c : Thread nD τ).loc main_arg5))⟩, ⟨S2048x2048, (m ((c : Thread nD τ).loc main_arg7))⟩] concatenates_S2048x2048_S2048x2048_S2048x2048_S6144x2048_d0) (concatenate S6144x2048 0 [⟨S2048x2048, (m ((c : Thread nD τ).loc main_arg9))⟩, ⟨S2048x2048, (m ((c : Thread nD τ).loc main_arg11))⟩, ⟨S2048x2048, (m ((c : Thread nD τ).loc main_arg13))⟩] concatenates_S2048x2048_S2048x2048_S2048x2048_S6144x2048_d0) (concatenate S6144 0 [⟨S2048, (m ((c : Thread nD τ).loc main_arg4))⟩, ⟨S2048, (m ((c : Thread nD τ).loc main_arg6))⟩, ⟨S2048, (m ((c : Thread nD τ).loc main_arg8))⟩] concatenates_S2048_S2048_S2048_S6144_d0) (concatenate S6144 0 [⟨S2048, (m ((c : Thread nD τ).loc main_arg10))⟩, ⟨S2048, (m ((c : Thread nD τ).loc main_arg12))⟩, ⟨S2048, (m ((c : Thread nD τ).loc main_arg14))⟩] concatenates_S2048_S2048_S2048_S6144_d0) := by
  rw [final8_V, V_main_arg0, V_main_arg1, V_main_arg2, V_Wx, V_Wh, V_bx, V_bh]

/-! ## The run, read -/

/-- The kernel's two results as functions of the launch memory. -/
def resH (c : Dev nD) : Arr2 8192 2048 := Gh (m ((c : Thread nD τ).loc main_arg0)) (m ((c : Thread nD τ).loc main_arg1)) (m ((c : Thread nD τ).loc main_arg2)) (concatenate S6144x2048 0 [⟨S2048x2048, (m ((c : Thread nD τ).loc main_arg3))⟩, ⟨S2048x2048, (m ((c : Thread nD τ).loc main_arg5))⟩, ⟨S2048x2048, (m ((c : Thread nD τ).loc main_arg7))⟩] concatenates_S2048x2048_S2048x2048_S2048x2048_S6144x2048_d0) (concatenate S6144x2048 0 [⟨S2048x2048, (m ((c : Thread nD τ).loc main_arg9))⟩, ⟨S2048x2048, (m ((c : Thread nD τ).loc main_arg11))⟩, ⟨S2048x2048, (m ((c : Thread nD τ).loc main_arg13))⟩] concatenates_S2048x2048_S2048x2048_S2048x2048_S6144x2048_d0) (concatenate S6144 0 [⟨S2048, (m ((c : Thread nD τ).loc main_arg4))⟩, ⟨S2048, (m ((c : Thread nD τ).loc main_arg6))⟩, ⟨S2048, (m ((c : Thread nD τ).loc main_arg8))⟩] concatenates_S2048_S2048_S2048_S6144_d0) (concatenate S6144 0 [⟨S2048, (m ((c : Thread nD τ).loc main_arg10))⟩, ⟨S2048, (m ((c : Thread nD τ).loc main_arg12))⟩, ⟨S2048, (m ((c : Thread nD τ).loc main_arg14))⟩] concatenates_S2048_S2048_S2048_S6144_d0)
def resC (c : Dev nD) : Arr2 8192 2048 := Gc (m ((c : Thread nD τ).loc main_arg0)) (m ((c : Thread nD τ).loc main_arg1)) (m ((c : Thread nD τ).loc main_arg2)) (concatenate S6144x2048 0 [⟨S2048x2048, (m ((c : Thread nD τ).loc main_arg3))⟩, ⟨S2048x2048, (m ((c : Thread nD τ).loc main_arg5))⟩, ⟨S2048x2048, (m ((c : Thread nD τ).loc main_arg7))⟩] concatenates_S2048x2048_S2048x2048_S2048x2048_S6144x2048_d0) (concatenate S6144x2048 0 [⟨S2048x2048, (m ((c : Thread nD τ).loc main_arg9))⟩, ⟨S2048x2048, (m ((c : Thread nD τ).loc main_arg11))⟩, ⟨S2048x2048, (m ((c : Thread nD τ).loc main_arg13))⟩] concatenates_S2048x2048_S2048x2048_S2048x2048_S6144x2048_d0) (concatenate S6144 0 [⟨S2048, (m ((c : Thread nD τ).loc main_arg4))⟩, ⟨S2048, (m ((c : Thread nD τ).loc main_arg6))⟩, ⟨S2048, (m ((c : Thread nD τ).loc main_arg8))⟩] concatenates_S2048_S2048_S2048_S6144_d0) (concatenate S6144 0 [⟨S2048, (m ((c : Thread nD τ).loc main_arg10))⟩, ⟨S2048, (m ((c : Thread nD τ).loc main_arg12))⟩, ⟨S2048, (m ((c : Thread nD τ).loc main_arg14))⟩] concatenates_S2048_S2048_S2048_S6144_d0)

/-- Every weakly fair execution ends with both result arrays at their functions of the arguments and the
    arguments unchanged. -/
theorem run : θ_run defs (onTc (τ := τ) (main (F := Ideal))) ⟨m, fun _ => 0, ρ⟩ fun r => ∀ c : Dev nD,
      r.2.mem ((c.tc : Thread nD τ).loc main_v8_0) = resH m c
      ∧ r.2.mem ((c.tc : Thread nD τ).loc main_v8_1) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 6).trans (((dats m 0 c).arrAt_in 6 rfl _).trans ((A_eq m c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Val

end
-- ==== Proof.RefValue.lean ====
/-
  The reference computes the same two whole-array functions.

  Its pre-activation is x·Wxᵀ + bx + h·Whᵀ + bh with the stacked weights transposed on the host and each product
  a plain sum over the 2048 columns; the three gates read the column bands [0, 2048), [2048, 4096), [4096, 6144) of
  it; and its sigmoid is written 1 / (1 + exp(−g)), which is what the logistic function is on the extended reals,
  the infinities included.
-/
import proofs.«111936_j28020366639121_2_alg».proof.Proof.Gen.ReferenceIdeal.Read
import proofs.«111936_j28020366639121_2_alg».proof.Proof.LstmSpec
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read Cert.LstmSpec
open Idealize.ShloMosaic Idealize.ShloMosaic.TcCoe Idealize.ShloMosaic.ValueIdx

/-- The reference's pre-activation at (R, J). -/
theorem pre_apply (x0 x1 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (R : Fin 8192) (J : Fin 6144) :
    val_main_v14 (F := Ideal) x0 x1 x3 x4 x5 x6 x7 x8 x9 x10 x11 x12 x13 x14 (ix2 R J) = pre x0 x1 (val_main_v0 (F := Ideal) x3 x5 x7) (val_main_v1 (F := Ideal) x9 x11 x13) (val_main_v2 (F := Ideal) x4 x6 x8) (val_main_v3 (F := Ideal) x10 x12 x14) R J := by
  have l5 : ∀ k, lidx_main_v5 (ix2 R J) k = ix2 R k := fun k => funext fun a => Fin.ext (by
    match a with
    | ⟨0, _⟩ => rfl
    | ⟨1, _⟩ => rfl)
  have r5 : ∀ k, idx_main_v4 (ridx_main_v5 (ix2 R J) k) = ix2 J k := fun k => funext fun a => Fin.ext (by
    match a with
    | ⟨0, _⟩ => rfl
    | ⟨1, _⟩ => rfl)
  have l10 : ∀ k, lidx_main_v10 (ix2 R J) k = ix2 R k := fun k => funext fun a => Fin.ext (by
    match a with
    | ⟨0, _⟩ => rfl
    | ⟨1, _⟩ => rfl)
  have r10 : ∀ k, idx_main_v9 (ridx_main_v10 (ix2 R J) k) = ix2 J k := fun k => funext fun a => Fin.ext (by
    match a with
    | ⟨0, _⟩ => rfl
    | ⟨1, _⟩ => rfl)
  have b7 : idx_main_v6 (idx_main_v7 (ix2 R J)) = ix1 J := funext fun a => Fin.ext (by
    match a with
    | ⟨0, _⟩ => rfl)
  have b13 : idx_main_v12 (idx_main_v13 (ix2 R J)) = ix1 J := funext fun a => Fin.ext (by
    match a with
    | ⟨0, _⟩ => rfl)
  rw [val_main_v14_apply, val_main_v11_apply, val_main_v8_apply, val_main_v5_apply, val_main_v7_apply, val_main_v6_apply,
    val_main_v10_apply, val_main_v13_apply, val_main_v12_apply]
  simp only [val_main_v4_apply, val_main_v9_apply, l5, r5, l10, r10, b7, b13, Ideal.addf_def]
  rfl

/-- The reference's new cell state is the specification's. -/
theorem cell_eq (x0 x1 x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) :
    val_main_v39 (F := Ideal) x0 x1 x2 x3 x4 x5 x6 x7 x8 x9 x10 x11 x12 x13 x14 = Gc x0 x1 x2 (val_main_v0 (F := Ideal) x3 x5 x7) (val_main_v1 (F := Ideal) x9 x11 x13) (val_main_v2 (F := Ideal) x4 x6 x8) (val_main_v3 (F := Ideal) x10 x12 x14) := by
  funext i
  obtain ⟨R, j, rfl⟩ : ∃ (R : Fin 8192) (j : Fin 2048), i = ix2 R j := ⟨i 0, i 1, eq_ix2 i⟩
  have i15 : idx_main_v15 (ix2 R j) = ix2 R (band 0 j) := funext fun a => Fin.ext (by
    match a with
    | ⟨0, _⟩ => rfl
    | ⟨1, _⟩ => show j.val = 0 * 2048 + j.val; omega)
  have i16 : idx_main_v16 (ix2 R j) = ix2 R (band 1 j) := funext fun a => Fin.ext (by
    match a with
    | ⟨0, _⟩ => rfl
    | ⟨1, _⟩ => show 2048 + j.val = 1 * 2048 + j.val; omega)
  show _ = cNew (pre x0 x1 (val_main_v0 (F := Ideal) x3 x5 x7) (val_main_v1 (F := Ideal) x9 x11 x13) (val_main_v2 (F := Ideal) x4 x6 x8) (val_main_v3 (F := Ideal) x10 x12 x14) R) (x2 (ix2 R j)) j
  simp only [val_main_v39_apply, val_main_v37_apply, val_main_v38_apply, val_main_v40_apply, val_main_v41_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_cst_apply, val_main_cst_0_apply, val_main_cst_1_apply, val_main_cst_2_apply, val_main_cst_3_apply, val_main_cst_4_apply, val_main_v15_apply, val_main_v16_apply, val_main_v17_apply, i15, i16, pre_apply]
  simp only [cNew, Ideal.logistic, Ideal.hostDivf_def, Ideal.addf_def, Ideal.mulf_def, Ideal.hostUnary_exp_def, Ideal.hostNegf_def, Ideal.negf_def,
    Ideal.hostUnary_tanh_def, Ideal.ofBits_def, Ideal.ofBits_one_f32]

/-- The reference's new hidden state is the specification's. -/
theorem hidden_eq (x0 x1 x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) :
    val_main_v41 (F := Ideal) x0 x1 x2 x3 x4 x5 x6 x7 x8 x9 x10 x11 x12 x13 x14 = Gh x0 x1 x2 (val_main_v0 (F := Ideal) x3 x5 x7) (val_main_v1 (F := Ideal) x9 x11 x13) (val_main_v2 (F := Ideal) x4 x6 x8) (val_main_v3 (F := Ideal) x10 x12 x14) := by
  funext i
  obtain ⟨R, j, rfl⟩ : ∃ (R : Fin 8192) (j : Fin 2048), i = ix2 R j := ⟨i 0, i 1, eq_ix2 i⟩
  have i15 : idx_main_v15 (ix2 R j) = ix2 R (band 0 j) := funext fun a => Fin.ext (by
    match a with
    | ⟨0, _⟩ => rfl
    | ⟨1, _⟩ => show j.val = 0 * 2048 + j.val; omega)
  have i16 : idx_main_v16 (ix2 R j) = ix2 R (band 1 j) := funext fun a => Fin.ext (by
    match a with
    | ⟨0, _⟩ => rfl
    | ⟨1, _⟩ => show 2048 + j.val = 1 * 2048 + j.val; omega)
  have i17 : idx_main_v17 (ix2 R j) = ix2 R (band 2 j) := funext fun a => Fin.ext (by
    match a with
    | ⟨0, _⟩ => rfl
    | ⟨1, _⟩ => show 4096 + j.val = 2 * 2048 + j.val; omega)
  show _ = hNew (pre x0 x1 (val_main_v0 (F := Ideal) x3 x5 x7) (val_main_v1 (F := Ideal) x9 x11 x13) (val_main_v2 (F := Ideal) x4 x6 x8) (val_main_v3 (F := Ideal) x10 x12 x14) R) (x2 (ix2 R j)) j
  simp only [val_main_v39_apply, val_main_v37_apply, val_main_v38_apply, val_main_v40_apply, val_main_v41_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_cst_apply, val_main_cst_0_apply, val_main_cst_1_apply, val_main_cst_2_apply, val_main_cst_3_apply, val_main_cst_4_apply, val_main_v15_apply, val_main_v16_apply, val_main_v17_apply, i15, i16, i17, pre_apply]
  simp only [hNew, cNew, Ideal.logistic, Ideal.hostDivf_def, Ideal.addf_def, Ideal.mulf_def, Ideal.hostUnary_exp_def, Ideal.hostNegf_def, Ideal.negf_def,
    Ideal.hostUnary_tanh_def, Ideal.ofBits_def, Ideal.ofBits_one_f32]

end Cert.ReferenceIdeal.RefValue

end
-- ==== Proof.lean ====
/-
  The LSTM cell's fused-gate kernel against its jnp reference, on the extended reals.

  Both programs compute, from activations x, h, the cell state c, three input-to-hidden and three
  hidden-to-hidden weight matrices and their biases,
      g = x·Wxᵀ + bx + h·Whᵀ + bh   (Wx, Wh, bx, bh the three gates' parameters stacked),
      c' = σ(g_m)·c + σ(g_i)·tanh(g_m),   h' = σ(g_o)·tanh(c'),
  the kernel tile by tile — 32 batch tiles, the contraction cut into 8 steps accumulated in a scratch buffer, the
  biases and gates applied at the last step — and the reference in whole-array operations. The three frame claims
  are the two kernels' frame run (the same text at the word level and idealized) and the reference's run; the
  idealization rewrote nothing; and the value claim joins the kernel's result arrays, read off its frame run, to the
  reference's by the specification's law: a sum taken step by step is the whole sum, and the biases may be added
  in either order. No step needs the inputs finite.
-/
import proofs.«111936_j28020366639121_2_alg».proof.Defs
import proofs.«111936_j28020366639121_2_alg».proof.Proof.Gen.Kernel
import proofs.«111936_j28020366639121_2_alg».proof.Proof.Gen.KernelIdeal
import proofs.«111936_j28020366639121_2_alg».proof.Proof.Gen.ReferenceIdeal
import proofs.«111936_j28020366639121_2_alg».proof.Proof.Gen.Pre_finite_inputs
import proofs.«111936_j28020366639121_2_alg».proof.Proof.Gen.ReferenceIdeal.Run
import proofs.«111936_j28020366639121_2_alg».proof.Proof.Gen.ReferenceIdeal.Read
import proofs.«111936_j28020366639121_2_alg».proof.Proof.KernelFrame.Frame
import proofs.«111936_j28020366639121_2_alg».proof.Proof.KernelIdealFrame.Frame
import proofs.«111936_j28020366639121_2_alg».proof.Proof.KernelValue
import proofs.«111936_j28020366639121_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the new hidden state and the new cell state at the specification's functions of the
    (agreeing) arguments. -/
theorem algebraic : Cert.algebraic_KernelIdeal_ReferenceIdeal := by
  intro m ρ m' ρ' _ hagree
  refine ⟨fun c => Cert.KernelIdeal.Val.resH m c, fun c => Cert.KernelIdeal.Val.resC m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v41_eq, Cert.ReferenceIdeal.RefValue.hidden_eq, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v39_eq, Cert.ReferenceIdeal.RefValue.cell_eq, a0, a1, a2, a3, a4, a5, a6, a7, a8, a9, a10, a11, a12, a13, a14]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
